-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096x1024 .f32) (main_arg5 : FVec F S4096 .f32) (main_arg6 : FVec F S4096 .f32) (main_arg7 : FVec F S4096 .f32) (main_arg8 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096 .f32) (main_arg6 : FVec F S4096 .f32) (main_arg7 : FVec F S4096 .f32) (main_arg8 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x1024, .bf16⟩
  | .hbm, ⟨10, _⟩ => ⟨S4096x1024, .bf16⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S4096x1024, .f32⟩
  | .hbm, ⟨16, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.LstmSpec.lean ====
/-
  The mathematics both programs compute, one batch row at a time, over the extended reals.

  A row of the input `x` and of the hidden state `h` (1024 entries each) meets the two weight matrices (4096 × 1024 each,
  contracted along their second axis, so that no transpose is ever formed) and a bias: 4096 pre-activations, the GATES.
  The gates are normalised along their own axis — mean, variance with the same divisor 4096, the reciprocal square root of
  variance plus ε, a per-gate scale γ and shift β — and then cut into four consecutive quarters of 1024: input, forget, cell
  and output gate. The new cell state is σ(forget)·c + σ(input)·tanh(cell), the new hidden state σ(output)·tanh(new cell).

  Everything is stated index by index on `Fin`-indexed families, with the two float literals kept as the binary words the
  programs print, so that each program's own term can be read into this form without evaluating anything.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

/-- The length of the gate axis, 4096, as the float both programs divide by. -/
abbrev gateCount : EReal := Ideal.ofBits .f32 0x45800000#32

/-- The ε of the normalisation (the float nearest 1e-5), as both programs print it. -/
abbrev epsWord : EReal := Ideal.ofBits .f32 0x3727C5AC#32

/-- Gate `j` of one batch row before normalisation: the row of `x` against row `j` of the input weights, plus the row of `h`
    against row `j` of the hidden weights, plus the bias of gate `j`. -/
def gate (x h : Fin 1024 → EReal) (wi wh : Fin 4096 → Fin 1024 → EReal) (b : Fin 4096 → EReal) (j : Fin 4096) : EReal :=
  ((∑ k : Fin 1024, x k * wi j k) + (∑ k : Fin 1024, h k * wh j k)) + b j

/-- The mean of a row of gates. -/
def mean (g : Fin 4096 → EReal) : EReal := Ideal.div (∑ j : Fin 4096, g j) gateCount

/-- The (biased) variance of a row of gates. -/
def variance (g : Fin 4096 → EReal) : EReal :=
  Ideal.div (∑ j : Fin 4096, (g j - mean g) * (g j - mean g)) gateCount

/-- The centred gate times the reciprocal standard deviation times the scale γ. -/
def scaled (g ga : Fin 4096 → EReal) (j : Fin 4096) : EReal :=
  (g j - mean g) * Ideal.rsqrt (variance g + epsWord) * ga j

/-- The normalised gate: scaled, then shifted by β. -/
def normed (g ga be : Fin 4096 → EReal) (j : Fin 4096) : EReal := scaled g ga j + be j

/-- Entry `q` of the quarter of the gate axis that starts at `o`. -/
def quarter (o : Nat) (ho : o + 1024 ≤ 4096) (q : Fin 1024) : Fin 4096 := ⟨o + q.val, by have := q.isLt; omega⟩

/-- The new cell state at `q`: σ(forget gate) · c + σ(input gate) · tanh(cell gate). -/
def cellState (n : Fin 4096 → EReal) (c : Fin 1024 → EReal) (q : Fin 1024) : EReal :=
  Ideal.logistic (n (quarter 1024 (by decide) q)) * c q
    + Ideal.logistic (n (quarter 0 (by decide) q)) * Ideal.tanh (n (quarter 2048 (by decide) q))

/-- The new hidden state at `q`: σ(output gate) · tanh(new cell state). -/
def hiddenState (n : Fin 4096 → EReal) (c : Fin 1024 → EReal) (q : Fin 1024) : EReal :=
  Ideal.logistic (n (quarter 3072 (by decide) q)) * Ideal.tanh (cellState n c q)

/-! ## The two results as whole arrays of the nine argument arrays -/

/-- A 4096 × 1024 array of extended reals (the inputs `x`, `h`, `c`, the two weight matrices, and both results). -/
abbrev Arr2 : Type := (⟨2, ![4096, 1024]⟩ : Shape).Idx → EReal
/-- A length-4096 array of extended reals (the two biases, the scale γ and the shift β). -/
abbrev Arr1 : Type := (⟨1, ![4096]⟩ : Shape).Idx → EReal

/-- Row `r` of a 4096 × 1024 array. -/
def matRow (X : Arr2) (r : Fin 4096) : Fin 1024 → EReal := fun k => X (ix2 r k)
/-- A 4096 × 1024 array by rows. -/
def matRows (W : Arr2) : Fin 4096 → Fin 1024 → EReal := fun j k => W (ix2 j k)
/-- A length-4096 array as a family. -/
def vecFam (v : Arr1) : Fin 4096 → EReal := fun j => v (ix1 j)

/-- The normalised gates of batch row `r`: the two biases enter as their sum. -/
def batchGates (X H Wi Wh : Arr2) (bi bh ga be : Arr1) (r : Fin 4096) : Fin 4096 → EReal :=
  normed (gate (matRow X r) (matRow H r) (matRows Wi) (matRows Wh) (fun j => vecFam bi j + vecFam bh j)) (vecFam ga) (vecFam be)

/-- THE FIRST RESULT: the new hidden state, entry `(r, q)` from batch row `r` alone. -/
def newHidden (X H C Wi Wh : Arr2) (bi bh ga be : Arr1) : Arr2 := fun i =>
  hiddenState (batchGates X H Wi Wh bi bh ga be ⟨(i 0).val, (i 0).isLt⟩) (matRow C ⟨(i 0).val, (i 0).isLt⟩) ⟨(i 1).val, (i 1).isLt⟩

/-- THE SECOND RESULT: the new cell state. -/
def newCell (X H C Wi Wh : Arr2) (bi bh ga be : Arr1) : Arr2 := fun i =>
  cellState (batchGates X H Wi Wh bi bh ga be ⟨(i 0).val, (i 0).isLt⟩) (matRow C ⟨(i 0).val, (i 0).isLt⟩) ⟨(i 1).val, (i 1).isLt⟩

/-- The first result at an index whose coordinates are `R` and `Q`. -/
theorem newHidden_apply (X H C Wi Wh : Arr2) (bi bh ga be : Arr1) (i : (⟨2, ![4096, 1024]⟩ : Shape).Idx) (R : Fin 4096)
    (Q : Fin 1024) (hR : (i 0).val = R.val) (hQ : (i 1).val = Q.val) :
    newHidden X H C Wi Wh bi bh ga be i = hiddenState (batchGates X H Wi Wh bi bh ga be R) (matRow C R) Q := by
  have e0 : (⟨(i 0).val, (i 0).isLt⟩ : Fin 4096) = R := Fin.ext hR
  have e1 : (⟨(i 1).val, (i 1).isLt⟩ : Fin 1024) = Q := Fin.ext hQ
  unfold newHidden
  rw [e0, e1]

/-- The second result at an index whose coordinates are `R` and `Q`. -/
theorem newCell_apply (X H C Wi Wh : Arr2) (bi bh ga be : Arr1) (i : (⟨2, ![4096, 1024]⟩ : Shape).Idx) (R : Fin 4096)
    (Q : Fin 1024) (hR : (i 0).val = R.val) (hQ : (i 1).val = Q.val) :
    newCell X H C Wi Wh bi bh ga be i = cellState (batchGates X H Wi Wh bi bh ga be R) (matRow C R) Q := by
  have e0 : (⟨(i 0).val, (i 0).isLt⟩ : Fin 4096) = R := Fin.ext hR
  have e1 : (⟨(i 1).val, (i 1).isLt⟩ : Fin 1024) = Q := Fin.ext hQ
  unfold newCell
  rw [e0, e1]

end Cert.LstmSpec

end
-- ==== Proof.LibKeepdims.lean ====
/-
  Two layout reads every `keepdims` reduction along the last axis meets, in the style of the value library's small-shape
  lemmas: a length-`a` vector viewed as an `a × 1` column, and an `a × 1` column spread over `b` lanes.
  With them a row statistic (a sum, a mean, a reciprocal deviation) computed once per row is read, at any entry of the
  row, as that row's value.
-/
import Idealize.ShloMosaic.Lib.Pipeline.Value
import Idealize.ShloMosaic.Lib.ValueIdx
import Idealize.ShloMosaic.Lib.ValueLayout

namespace Idealize.ShloMosaic.ValueIdx

variable {α : Type}

/-- An `[a]` array cast to a column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  One row of the kernel's block, read entry by entry.

  At a grid point the body holds a 256 × 1024 block of `x`, one of `h`, the two whole weight matrices, and three single
  rows (bias, scale, shift) of 4096 lanes. Row `p` of the block and lane `j` determine one pre-activation: the two matrix
  products contract the block's row with ROW `j` of each weight matrix (both operands are contracted along their second
  axis), and the bias row is the same for every `p`. The normalisation then works inside row `p` alone: its mean and variance
  are lane sums of that row, kept as a 256 × 1 column and spread back over the 4096 lanes.

  So the value the body computes before the shift β, at `(p, j)`, is the specification's `scaled` of the gates of row `p`.
-/
import proofs.«162058_j55903294325169_2_alg».proof.Proof.Gen.KernelIdeal.Skeleton
import proofs.«162058_j55903294325169_2_alg».proof.Proof.LstmSpec
import proofs.«162058_j55903294325169_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RowValue

open Cert.KernelIdeal Cert.KernelIdeal.Gen Idealize.ShloMosaic Idealize.ShloMosaic.ValueIdx Cert.LstmSpec

/-! ## Rows of the operands as `Fin`-indexed families -/

/-- Row `p` of a 256 × 1024 block. -/
def blockRow (P : FVec Ideal S256x1024 .f32) (p : Fin 256) : Fin 1024 → EReal := fun k => P (ix2 p k)

/-- A 4096 × 1024 weight matrix by rows. -/
def weightRows {φ : FTy} (W : FVec Ideal S4096x1024 φ) : Fin 4096 → Fin 1024 → EReal := fun j k => W (ix2 j k)

/-- The one row of a 1 × 4096 operand. -/
def lanes (v : FVec Ideal S1x4096 .f32) : Fin 4096 → EReal := fun j => v (ix2 (0 : Fin 1) j)

/-- Row `p` of a 256 × 4096 value. -/
def gateRow (g : FVec Ideal S256x4096 .f32) (p : Fin 256) : Fin 4096 → EReal := fun j => g (ix2 p j)

/-! ## The two non-pointwise operations at an index -/

/-- The left operand of the product at output `(p, j)` and contraction position `q` sits in row `p`. -/
theorem lhs_row (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl

/-- The right operand there sits in row `j` of the weight matrix: the output's second coordinate names a ROW. -/
theorem rhs_row (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl

/-- The matrix product into a zero accumulator, at `(p, j)`: row `p` of the left operand against row `j` of the right. -/
theorem matmul_rows {φ₁ φ₂ : FTy} (L : FVec Ideal S256x1024 φ₁) (R : FVec Ideal S4096x1024 φ₂) (p : Fin 256) (j : Fin 4096) :
    matmul dot_S256x1024_S4096x1024_S256x4096_1_1_0_0_n_n none L R (constant (F := Ideal) S256x4096 .f32 0x00000000#32) (ix2 p j)
      = ∑ k : Fin 1024, L (ix2 p k) * R (ix2 j k) := by
  simp only [matmul]
  rw [Ideal.matmul_constant_zero_apply,
    ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p j)
      ((contrEquiv1 dot_S256x1024_S4096x1024_S256x4096_1_1_0_0_n_n 1024 rfl rfl).symm k) = ix2 p k :=
    funext fun a => Fin.ext (by
      match a with
      | ⟨0, _⟩ => exact lhs_row _ _
      | ⟨1, _⟩ => exact (dot_S256x1024_S4096x1024_S256x4096_1_1_0_0_n_n.lhsIdx_val_of_single rfl _ _).trans hk)
  have er : dot_S256x1024_S4096x1024_S256x4096_1_1_0_0_n_n.rhsIdx (ix2 p j)
      ((contrEquiv1 dot_S256x1024_S4096x1024_S256x4096_1_1_0_0_n_n 1024 rfl rfl).symm k) = ix2 j k :=
    funext fun a => Fin.ext (by
      match a with
      | ⟨0, _⟩ => exact rhs_row _ _
      | ⟨1, _⟩ => exact (dot_S256x1024_S4096x1024_S256x4096_1_1_0_0_n_n.rhsIdx_val_of_single rfl _ _).trans hk)
  rw [el, er]

/-- The sum over the lanes of row `p`. -/
theorem laneSum (g : FVec Ideal S256x4096 .f32) (hφ : FKind.Formats .f32)
    (hacc : (0x00000000#32 : BitVec 32) = FKind.add.neutral .f32 hφ) (p : Fin 256) :
    multiReduction .add [1] S256 g 0x00000000#32 reduces_S256x4096_S256 hφ hacc (ix1 p) = ∑ j : Fin 4096, g (ix2 p j) :=
  (Ideal.multiReduction_add_single g 0x00000000#32 reduces_S256x4096_S256 hφ hacc (ix1 p)).trans
    (Finset.sum_congr rfl fun k _ => congrArg g (funext fun a => Fin.ext (by
      match a with
      | ⟨0, _⟩ => rfl
      | ⟨1, _⟩ => rfl)))

/-! ## The body's value before the shift, in three steps -/

/-- The pre-activations of a block: the two products into zero accumulators, added, plus the bias row on every row. -/
def preGates (P0 P1 : FVec Ideal S256x1024 .f32) (P2 P3 : FVec Ideal S4096x1024 .bf16) (P4 : FVec Ideal S1x4096 .f32) :
    FVec Ideal S256x4096 .f32 :=
  addf (addf
      (matmul dot_S256x1024_S4096x1024_S256x4096_1_1_0_0_n_n none (truncf .bf16 P0 bitsLt_bf16_f32)
        (shapeCast S4096x1024 P2 shapeCasts_S4096x1024_S4096x1024) (constant S256x4096 .f32 0x00000000#32))
      (matmul dot_S256x1024_S4096x1024_S256x4096_1_1_0_0_n_n none (truncf .bf16 P1 bitsLt_bf16_f32)
        (shapeCast S4096x1024 P3 shapeCasts_S4096x1024_S4096x1024) (constant S256x4096 .f32 0x00000000#32)))
    (broadcastTo S256x4096 (shapeCast S1x4096 P4 shapeCasts_S1x4096_S1x4096) broadcasts_S1x4096_S256x4096)

/-- The mean of every row, as a column: the lane sum, viewed 256 × 1, over the splat of 4096. -/
def rowMean (g : FVec Ideal S256x4096 .f32) : FVec Ideal S256x1 .f32 :=
  divf (shapeCast S256x1 (multiReduction .add [1] S256 g 0x00000000#32 reduces_S256x4096_S256 (.inl rfl) rfl) shapeCasts_S256_S256x1)
    (broadcast S256x1 (Scalar.ofBits .f32 0x45800000#32))

/-- Every entry minus its row's mean. -/
def centred (g : FVec Ideal S256x4096 .f32) : FVec Ideal S256x4096 .f32 :=
  subf g (broadcastTo S256x4096 (rowMean g) broadcasts_S256x1_S256x4096)

/-- Centred, times the reciprocal deviation of the row, times the scale row. -/
def lnScaled (g : FVec Ideal S256x4096 .f32) (P5 : FVec Ideal S1x4096 .f32) : FVec Ideal S256x4096 .f32 :=
  mulf (mulf (centred g)
      (broadcastTo S256x4096
        (rsqrt (addf (rowMean (mulf (centred g) (centred g))) (broadcast S256x1 (Scalar.ofBits .f32 0x3727C5AC#32))))
        broadcasts_S256x1_S256x4096))
    (broadcastTo S256x4096 (shapeCast S1x4096 P5 shapeCasts_S1x4096_S1x4096) broadcasts_S1x4096_S256x4096)

/-- The body's payload before the shift is these three steps composed. -/
theorem pay4_eq (P0 P1 : FVec Ideal S256x1024 .f32) (P2 P3 : FVec Ideal S4096x1024 .bf16) (P4 P5 : FVec Ideal S1x4096 .f32) :
    k0_pay4 (F := Ideal) P0 P1 P2 P3 P4 P5 = lnScaled (preGates P0 P1 P2 P3 P4) P5 := rfl

/-- A single-row operand spread over the rows reads its lane. -/
theorem laneRow_apply (v : FVec Ideal S1x4096 .f32) (p : Fin 256) (j : Fin 4096) :
    broadcastTo S256x4096 (shapeCast S1x4096 v shapeCasts_S1x4096_S1x4096) broadcasts_S1x4096_S256x4096 (ix2 p j) = lanes v j := by
  rw [shapeCast_self]
  exact broadcastTo_1b_ab_apply v broadcasts_S1x4096_S256x4096 p j

/-- The pre-activation at `(p, j)` is the specification's gate `j` of row `p`. -/
theorem preGates_apply (P0 P1 : FVec Ideal S256x1024 .f32) (P2 P3 : FVec Ideal S4096x1024 .bf16) (P4 : FVec Ideal S1x4096 .f32)
    (p : Fin 256) (j : Fin 4096) :
    preGates P0 P1 P2 P3 P4 (ix2 p j) = gate (blockRow P0 p) (blockRow P1 p) (weightRows P2) (weightRows P3) (lanes P4) j := by
  unfold preGates gate
  rw [addf_apply, addf_apply, matmul_rows, matmul_rows, laneRow_apply, shapeCast_self, shapeCast_self]
  rfl

/-- The column of means at row `p` is the mean of that row. -/
theorem rowMean_apply (g : FVec Ideal S256x4096 .f32) (p : Fin 256) :
    rowMean g (ix2 p (0 : Fin 1)) = mean (gateRow g p) := by
  unfold rowMean mean
  rw [divf_apply, shapeCast_a_a1_apply]
  exact congrArg (Ideal.div · gateCount) (laneSum g _ _ p)

theorem centred_apply (g : FVec Ideal S256x4096 .f32) (p : Fin 256) (j : Fin 4096) :
    centred g (ix2 p j) = gateRow g p j - mean (gateRow g p) := by
  unfold centred
  rw [subf_apply, broadcastTo_a1_ab_apply, rowMean_apply]
  rfl

/-- The mean of the squared centred entries of row `p` is that row's variance. -/
theorem rowVar_apply (g : FVec Ideal S256x4096 .f32) (p : Fin 256) :
    rowMean (mulf (centred g) (centred g)) (ix2 p (0 : Fin 1)) = variance (gateRow g p) := by
  rw [rowMean_apply]
  unfold mean variance
  refine congrArg (Ideal.div · gateCount) (Finset.sum_congr rfl fun j _ => ?_)
  show mulf (centred g) (centred g) (ix2 p j) = _
  rw [mulf_apply, centred_apply]

theorem lnScaled_apply (g : FVec Ideal S256x4096 .f32) (P5 : FVec Ideal S1x4096 .f32) (p : Fin 256) (j : Fin 4096) :
    lnScaled g P5 (ix2 p j) = scaled (gateRow g p) (lanes P5) j := by
  unfold lnScaled scaled
  rw [mulf_apply, mulf_apply, centred_apply, laneRow_apply, broadcastTo_a1_ab_apply]
  show _ * Ideal.rsqrt (rowMean (mulf (centred g) (centred g)) (ix2 p (0 : Fin 1)) + Ideal.ofBits .f32 0x3727C5AC#32) * _ = _
  rw [rowVar_apply]

/-- THE ROW VALUE: the body's payload before the shift, at row `p` and lane `j`, is the scaled normalised gate `j` of the
    gates of row `p`. -/
theorem pay4_apply (P0 P1 : FVec Ideal S256x1024 .f32) (P2 P3 : FVec Ideal S4096x1024 .bf16) (P4 P5 : FVec Ideal S1x4096 .f32)
    (p : Fin 256) (j : Fin 4096) :
    k0_pay4 (F := Ideal) P0 P1 P2 P3 P4 P5 (ix2 p j)
      = scaled (gate (blockRow P0 p) (blockRow P1 p) (weightRows P2) (weightRows P3) (lanes P4)) (lanes P5) j := by
  rw [pay4_eq, lnScaled_apply]
  refine congrArg (fun g => scaled g (lanes P5) j) (funext fun j' => ?_)
  exact preGates_apply P0 P1 P2 P3 P4 p j'

end Cert.KernelIdeal.RowValue

end
-- ==== Proof.KernelBlock.lean ====
/-
  A whole output block, read entry by entry.

  The body adds the shift row β to the scaled gates, cuts the 4096 lanes into four quarters of 1024 (input, forget, cell,
  output gate, in that order), and combines them entrywise with the block of the old cell state: the new cell state at
  `(p, q)` is σ(forget)·c + σ(input)·tanh(cell), the new hidden state σ(output)·tanh(new cell). Each quarter slice at
  `(p, q)` reads lane `o + q` of row `p`, so both results at `(p, q)` are the specification's `cell` and `hidden` of row
  `p`'s normalised gates. What the body leaves in each output buffer is its one whole-block store of these values.
-/
import proofs.«162058_j55903294325169_2_alg».proof.Proof.Gen.KernelIdeal.Frame
import proofs.«162058_j55903294325169_2_alg».proof.Proof.KernelRow

noncomputable section

namespace Cert.KernelIdeal.BlockValue

open Cert.KernelIdeal Cert.KernelIdeal.Gen Cert.KernelIdeal.RowValue Idealize.ShloMosaic Idealize.ShloMosaic.ValueIdx Cert.LstmSpec

/-- The spellings `![0, 0]` and `fun _ => 0` of the zero offset agree. -/
theorem zeroOffsets : (![0, 0] : Fin 2 → Nat) = fun _ => 0 := funext fun a => by fin_cases a <;> rfl

/-- The scaled gates plus the shift row, at `(p, j)`. -/
theorem pay1_apply (g : FVec Ideal S256x4096 .f32) (be : FVec Ideal S1x4096 .f32) (p : Fin 256) (j : Fin 4096) :
    k0_pay1 (F := Ideal) g be (ix2 p j) = gateRow g p j + lanes be j := by
  unfold k0_pay1
  rw [addf_apply, laneRow_apply]
  rfl

/-- A quarter slice of the shifted gates at `(p, q)` reads lane `o + q` of row `p`. -/
theorem quarter_apply (o : Nat) (ho : o + 1024 ≤ 4096) (g : FVec Ideal S256x4096 .f32) (be : FVec Ideal S1x4096 .f32)
    (hs : S256x4096.Slices ![0, o] S256x1024) (p : Fin 256) (q : Fin 1024) :
    extractStridedSlice S256x1024 ![0, o] (k0_pay1 (F := Ideal) g be) hs (ix2 p q)
      = gateRow g p (quarter o ho q) + lanes be (quarter o ho q) :=
  (slice2_axis1_eq o (k0_pay1 (F := Ideal) g be) hs p q).trans (pay1_apply g be p (quarter o ho q))

/-- The new cell state the body stores, at `(p, q)`. -/
theorem pay2_apply (g : FVec Ideal S256x4096 .f32) (be : FVec Ideal S1x4096 .f32) (c : FVec Ideal S256x1024 .f32)
    (p : Fin 256) (q : Fin 1024) :
    k0_pay2 (F := Ideal) g be c (ix2 p q) = cellState (fun j => gateRow g p j + lanes be j) (blockRow c p) q := by
  unfold k0_pay2 cellState
  show Ideal.logistic (extractStridedSlice S256x1024 ![0, 1024] (k0_pay1 (F := Ideal) g be) slices_S256x4096_o0_1024_S256x1024 (ix2 p q)) * c (ix2 p q)
      + Ideal.logistic (extractStridedSlice S256x1024 ![0, 0] (k0_pay1 (F := Ideal) g be) slices_S256x4096_o0_0_S256x1024 (ix2 p q))
        * Ideal.tanh (extractStridedSlice S256x1024 ![0, 2048] (k0_pay1 (F := Ideal) g be) slices_S256x4096_o0_2048_S256x1024 (ix2 p q)) = _
  rw [quarter_apply 1024 (by decide), quarter_apply 0 (by decide), quarter_apply 2048 (by decide)]
  rfl

/-- The new hidden state the body stores, at `(p, q)`. -/
theorem pay3_apply (g : FVec Ideal S256x4096 .f32) (be : FVec Ideal S1x4096 .f32) (c : FVec Ideal S256x1024 .f32)
    (p : Fin 256) (q : Fin 1024) :
    k0_pay3 (F := Ideal) g be c (ix2 p q) = hiddenState (fun j => gateRow g p j + lanes be j) (blockRow c p) q := by
  unfold k0_pay3 hiddenState
  show Ideal.logistic (extractStridedSlice S256x1024 ![0, 3072] (k0_pay1 (F := Ideal) g be) slices_S256x4096_o0_3072_S256x1024 (ix2 p q))
      * Ideal.tanh (k0_pay2 (F := Ideal) g be c (ix2 p q)) = _
  rw [quarter_apply 3072 (by decide), pay2_apply]

/-- The normalised gates of row `p` of a block, from the operands the body loads. -/
def rowGates (x h : FVec Ideal S256x1024 .f32) (wi wh : FVec Ideal S4096x1024 .bf16) (b ga be : FVec Ideal S1x4096 .f32)
    (p : Fin 256) : Fin 4096 → EReal :=
  normed (gate (blockRow x p) (blockRow h p) (weightRows wi) (weightRows wh) (lanes b)) (lanes ga) (lanes be)

/-- The shifted scaled gates of row `p` are the specification's normalised gates of that row. -/
theorem shifted_eq (x h : FVec Ideal S256x1024 .f32) (wi wh : FVec Ideal S4096x1024 .bf16) (b ga be : FVec Ideal S1x4096 .f32)
    (p : Fin 256) :
    (fun j => gateRow (k0_pay4 (F := Ideal) x h wi wh b ga) p j + lanes be j) = rowGates x h wi wh b ga be p :=
  funext fun j => congrArg (· + lanes be j) (pay4_apply x h wi wh b ga p j)

/-- When the loaded operands read the argument arrays — row `p` of the two input blocks is row `R` of their arrays, the weight
    blocks are their whole matrices, the bias row is the sum of the two bias vectors — the gates of block row `p` are the
    gates of batch row `R`. -/
theorem gates_of_reads (x h : FVec Ideal S256x1024 .f32) (wi wh : FVec Ideal S4096x1024 .bf16) (b ga be : FVec Ideal S1x4096 .f32)
    (X H Wi Wh : Arr2) (bi bh gaA beA : Arr1) (p : Fin 256) (R : Fin 4096)
    (hx : ∀ k, x (ix2 p k) = X (ix2 R k)) (hh : ∀ k, h (ix2 p k) = H (ix2 R k))
    (hwi : ∀ j k, wi (ix2 j k) = Wi (ix2 j k)) (hwh : ∀ j k, wh (ix2 j k) = Wh (ix2 j k))
    (hb : ∀ j, b (ix2 (0 : Fin 1) j) = bi (ix1 j) + bh (ix1 j))
    (hga : ∀ j, ga (ix2 (0 : Fin 1) j) = gaA (ix1 j)) (hbe : ∀ j, be (ix2 (0 : Fin 1) j) = beA (ix1 j)) :
    rowGates x h wi wh b ga be p = batchGates X H Wi Wh bi bh gaA beA R := by
  have e1 : blockRow x p = matRow X R := funext hx
  have e2 : blockRow h p = matRow H R := funext hh
  have e3 : weightRows wi = matRows Wi := funext fun j => funext (hwi j)
  have e4 : weightRows wh = matRows Wh := funext fun j => funext (hwh j)
  have e5 : lanes b = fun j => vecFam bi j + vecFam bh j := funext hb
  have e6 : lanes ga = vecFam gaA := funext hga
  have e7 : lanes be = vecFam beA := funext hbe
  unfold rowGates batchGates
  rw [e1, e2, e3, e4, e5, e6, e7]

/-- WINDOW 8 (the new hidden state): what the body leaves in the output buffer, at `(p, q)`. -/
theorem out8_apply (x h c : Vec Ideal S256x1024 .f32) (wi wh : Vec Ideal S4096x1024 .bf16) (b ga be : Vec Ideal S1x4096 .f32)
    (p : Fin 256) (q : Fin 1024) :
    out0_8 (F := Ideal) x h c wi wh b ga be (ix2 p q) = hiddenState (rowGates x h wi wh b ga be p) (blockRow c p) q := by
  unfold out0_8
  rw [View.canon_unit_zero zeroOffsets]
  simp only [View.ld_unit_zero (S := S256x1024) zeroOffsets, View.ld_unit_zero (S := S4096x1024) zeroOffsets,
    View.ld_unit_zero (S := S1x4096) zeroOffsets]
  rw [pay3_apply, shifted_eq]

/-- WINDOW 9 (the new cell state): what the body leaves in the output buffer, at `(p, q)`. -/
theorem out9_apply (x h c : Vec Ideal S256x1024 .f32) (wi wh : Vec Ideal S4096x1024 .bf16) (b ga be : Vec Ideal S1x4096 .f32)
    (p : Fin 256) (q : Fin 1024) :
    out0_9 (F := Ideal) x h c wi wh b ga be (ix2 p q) = cellState (rowGates x h wi wh b ga be p) (blockRow c p) q := by
  unfold out0_9
  rw [View.canon_unit_zero zeroOffsets]
  simp only [View.ld_unit_zero (S := S256x1024) zeroOffsets, View.ld_unit_zero (S := S4096x1024) zeroOffsets,
    View.ld_unit_zero (S := S1x4096) zeroOffsets]
  rw [pay2_apply, shifted_eq]

end Cert.KernelIdeal.BlockValue

end
-- ==== Proof.KernelArray.lean ====
/-
  From blocks to arrays: the kernel's two results as functions of its nine arguments.

  The grid has 16 points. Point `t` sees rows 256·t … 256·t + 255 of `x`, `h` and `c` (block index `(t, 0)`), the whole of both
  weight matrices and of the three single-row operands (block index `(0, 0)` at every point), and writes back rows
  256·t … 256·t + 255 of both results. Before the region the host rounds the two weight matrices to bf16 — the identity on
  the extended reals —, adds the two bias vectors, and views that sum, the scale and the shift as 1 × 4096 rows.

  So row `p` of every block at point `t` is batch row `R = 256·t + p` of its array, what the point writes back is rows
  256·t … of the specification's `newHidden` / `newCell`, and since the 16 blocks cover the 4096 rows each result array ends
  as that function of the arguments, whole.
-/
import proofs.«162058_j55903294325169_2_alg».proof.Proof.ValueBlockwise
import proofs.«162058_j55903294325169_2_alg».proof.Proof.KernelBlock
import Idealize.ShloMosaic.Lib.StableHlo.Run

noncomputable section

namespace Cert.KernelIdeal.ArrayValue

open Cert.KernelIdeal Cert.KernelIdeal.Gen Cert.KernelIdeal.RowValue Cert.KernelIdeal.BlockValue Cert.KernelIdeal.ValueP
open Idealize.ShloMosaic Idealize.ShloMosaic.TcCoe Idealize.SL.Sem Idealize.ShloMosaic.ValueIdx Cert.LstmSpec
open Idealize.ShloMosaic.Pipeline (Dat)

variable (m : (ℓ : Loc nD τ sig) → Buf (Elt Ideal) ℓ) (ρ : Dev nD → PrngReg)

/-! ## The index maps, decided over the 16 grid points -/

/-- The three batch-tiled inputs and the second result move with the first result's row block; every other coordinate of
    every block index is 0; the row block index is at most 15. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 2) = win0_8.index t (0 : Fin 2) ∧ win0_9.index t (1 : Fin 2) = 0
    ∧ win0_8.index t (1 : Fin 2) = 0 ∧ win0_8.index t (0 : Fin 2) ≤ 15 :=
  (by decide +kernel : ∀ t : Fin grid0.N, _)

/-- Every one of the 16 row blocks is some point's, for both results. -/
theorem idx_onto : ∀ b : Fin 16, ∃ t : Fin cfg0.N, win0_8.index t = ![b.val, 0] ∧ win0_9.index t = ![b.val, 0] :=
  (by decide +kernel : ∀ b : Fin 16, ∃ t : Fin grid0.N, win0_8.index t = ![b.val, 0] ∧ win0_9.index t = ![b.val, 0])

/-! ## What the host leaves in the region's operand arrays -/

/-- The input weights rounded to bf16 are the input weights. -/
theorem V_wi (c : Dev nD) (i : S4096x1024.Idx) : V m c main_v0 i = (m ((c : Thread nD τ).loc main_arg3)) i := by
  have e : (V m c main_v0 : S4096x1024.Idx → EReal)
      = (truncf (F := Ideal) (s := S4096x1024) (φ := .f32) .bf16 (m ((c : Thread nD τ).loc main_arg3)) bitsLt_bf16_f32 : S4096x1024.Idx → EReal) := by
    dsimp only [Gen.V, Gen.hostOps0]; after_results <;> rfl
  exact congrFun e i

/-- The hidden weights rounded to bf16 are the hidden weights. -/
theorem V_wh (c : Dev nD) (i : S4096x1024.Idx) : V m c main_v1 i = (m ((c : Thread nD τ).loc main_arg4)) i := by
  have e : (V m c main_v1 : S4096x1024.Idx → EReal)
      = (truncf (F := Ideal) (s := S4096x1024) (φ := .f32) .bf16 (m ((c : Thread nD τ).loc main_arg4)) bitsLt_bf16_f32 : S4096x1024.Idx → EReal) := by
    dsimp only [Gen.V, Gen.hostOps0]; after_results <;> rfl
  exact congrFun e i

/-- The bias row is the sum of the two bias vectors. -/
theorem V_bias (c : Dev nD) (u : Fin 1) (j : Fin 4096) :
    V m c main_v3 (ix2 u j) = vecFam (m ((c : Thread nD τ).loc main_arg5)) j + vecFam (m ((c : Thread nD τ).loc main_arg6)) j := by
  have e : (V m c main_v3 : S1x4096.Idx → EReal)
      = shapeCast S1x4096 (addf (F := Ideal) (s := S4096) (φ := .f32) (m ((c : Thread nD τ).loc main_arg5)) (m ((c : Thread nD τ).loc main_arg6))) shapeCasts_S4096_S1x4096 := by
    dsimp only [Gen.V, Gen.hostOps0]; after_results <;> rfl
  exact (congrFun e (ix2 u j)).trans (shapeCast_a_1a_apply _ shapeCasts_S4096_S1x4096 u j)

/-- The scale row is the scale vector. -/
theorem V_gamma (c : Dev nD) (u : Fin 1) (j : Fin 4096) : V m c main_v4 (ix2 u j) = (m ((c : Thread nD τ).loc main_arg7)) (ix1 j) := by
  have e : (V m c main_v4 : S1x4096.Idx → EReal) = shapeCast S1x4096 (m ((c : Thread nD τ).loc main_arg7)) shapeCasts_S4096_S1x4096 := by
    dsimp only [Gen.V, Gen.hostOps0]; after_results <;> rfl
  exact (congrFun e (ix2 u j)).trans (shapeCast_a_1a_apply _ shapeCasts_S4096_S1x4096 u j)

/-- The shift row is the shift vector. -/
theorem V_beta (c : Dev nD) (u : Fin 1) (j : Fin 4096) : V m c main_v5 (ix2 u j) = (m ((c : Thread nD τ).loc main_arg8)) (ix1 j) := by
  have e : (V m c main_v5 : S1x4096.Idx → EReal) = shapeCast S1x4096 (m ((c : Thread nD τ).loc main_arg8)) shapeCasts_S4096_S1x4096 := by
    dsimp only [Gen.V, Gen.hostOps0]; after_results <;> rfl
  exact (congrFun e (ix2 u j)).trans (shapeCast_a_1a_apply _ shapeCasts_S4096_S1x4096 u j)

/-! ## Each input block read where the result's rows say -/

/-- Row `p` of the block of `x` at point `t` is row `R = 256·(row block of t) + p` of `x`. -/
theorem xBlock_apply (c : Dev nD) (t : Fin cfg0.N) (p : Fin 256) (k : Fin 1024) (R : Fin 4096)
    (hR : R.val = win0_8.index t (0 : Fin 2) * 256 + p.val) :
    iblk m c 0 t (ix2 p k) = (m ((c : Thread nD τ).loc main_arg0)) (ix2 R k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 256 + 1 * p.val = R.val; omega
  | ⟨1, _⟩ => show win0_0.index t (1 : Fin 2) * 1024 + 1 * k.val = k.val; omega

/-- The same for the block of `h`. -/
theorem hBlock_apply (c : Dev nD) (t : Fin cfg0.N) (p : Fin 256) (k : Fin 1024) (R : Fin 4096)
    (hR : R.val = win0_8.index t (0 : Fin 2) * 256 + p.val) :
    iblk m c 1 t (ix2 p k) = (m ((c : Thread nD τ).loc main_arg1)) (ix2 R k) := by
  obtain ⟨-, -, e0, e1, -⟩ := idx_facts t
  show V m c main_arg1 (((cfg0.win 1).blk t).view.emb (ix2 p k)) = _
  rw [V_main_arg1]
  refine congrArg (m ((c : Thread nD τ).loc main_arg1)) (funext fun a => Fin.ext ?_)
  match a with
  | ⟨0, _⟩ => show win0_1.index t (0 : Fin 2) * 256 + 1 * p.val = R.val; omega
  | ⟨1, _⟩ => show win0_1.index t (1 : Fin 2) * 1024 + 1 * k.val = k.val; omega

/-- The same for the block of the old cell state. -/
theorem cBlock_apply (c : Dev nD) (t : Fin cfg0.N) (p : Fin 256) (k : Fin 1024) (R : Fin 4096)
    (hR : R.val = win0_8.index t (0 : Fin 2) * 256 + p.val) :
    iblk m c 2 t (ix2 p k) = (m ((c : Thread nD τ).loc main_arg2)) (ix2 R k) := by
  obtain ⟨-, -, -, -, e0, e1, -⟩ := idx_facts t
  show V m c main_arg2 (((cfg0.win 2).blk t).view.emb (ix2 p k)) = _
  rw [V_main_arg2]
  refine congrArg (m ((c : Thread nD τ).loc main_arg2)) (funext fun a => Fin.ext ?_)
  match a with
  | ⟨0, _⟩ => show win0_2.index t (0 : Fin 2) * 256 + 1 * p.val = R.val; omega
  | ⟨1, _⟩ => show win0_2.index t (1 : Fin 2) * 1024 + 1 * k.val = k.val; omega

/-- The block of the input weights is the whole matrix, at every point. -/
theorem wiBlock_apply (c : Dev nD) (t : Fin cfg0.N) (j : Fin 4096) (k : Fin 1024) :
    iblk m c 3 t (ix2 j k) = (m ((c : Thread nD τ).loc main_arg3)) (ix2 j k) := by
  obtain ⟨-, -, -, -, -, -, e0, e1, -⟩ := idx_facts t
  show V m c main_v0 (((cfg0.win 3).blk t).view.emb (ix2 j k)) = _
  rw [V_wi]
  refine congrArg (m ((c : Thread nD τ).loc main_arg3)) (funext fun a => Fin.ext ?_)
  match a with
  | ⟨0, _⟩ => show win0_3.index t (0 : Fin 2) * 4096 + 1 * j.val = j.val; omega
  | ⟨1, _⟩ => show win0_3.index t (1 : Fin 2) * 1024 + 1 * k.val = k.val; omega

/-- The block of the hidden weights is the whole matrix, at every point. -/
theorem whBlock_apply (c : Dev nD) (t : Fin cfg0.N) (j : Fin 4096) (k : Fin 1024) :
    iblk m c 4 t (ix2 j k) = (m ((c : Thread nD τ).loc main_arg4)) (ix2 j k) := by
  obtain ⟨-, -, -, -, -, -, -, -, e0, e1, -⟩ := idx_facts t
  show V m c main_v1 (((cfg0.win 4).blk t).view.emb (ix2 j k)) = _
  rw [V_wh]
  refine congrArg (m ((c : Thread nD τ).loc main_arg4)) (funext fun a => Fin.ext ?_)
  match a with
  | ⟨0, _⟩ => show win0_4.index t (0 : Fin 2) * 4096 + 1 * j.val = j.val; omega
  | ⟨1, _⟩ => show win0_4.index t (1 : Fin 2) * 1024 + 1 * k.val = k.val; omega

/-- The bias block at every point is the sum of the two bias vectors. -/
theorem biasBlock_apply (c : Dev nD) (t : Fin cfg0.N) (j : Fin 4096) :
    iblk m c 5 t (ix2 (0 : Fin 1) j) = vecFam (m ((c : Thread nD τ).loc main_arg5)) j + vecFam (m ((c : Thread nD τ).loc main_arg6)) j := by
  obtain ⟨-, -, -, -, -, -, -, -, -, -, e0, e1, -⟩ := idx_facts t
  show V m c main_v3 (((cfg0.win 5).blk t).view.emb (ix2 (0 : Fin 1) j)) = _
  have ee : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 4096 + 1 * j.val = j.val; omega)
  rw [ee]
  exact V_bias m c 0 j

/-- The scale block at every point is the scale vector. -/
theorem gammaBlock_apply (c : Dev nD) (t : Fin cfg0.N) (j : Fin 4096) :
    iblk m c 6 t (ix2 (0 : Fin 1) j) = (m ((c : Thread nD τ).loc main_arg7)) (ix1 j) := by
  obtain ⟨-, -, -, -, -, -, -, -, -, -, -, -, e0, e1, -⟩ := idx_facts t
  show V m c main_v4 (((cfg0.win 6).blk t).view.emb (ix2 (0 : Fin 1) j)) = _
  have ee : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 4096 + 1 * j.val = j.val; omega)
  rw [ee]
  exact V_gamma m c 0 j

/-- The shift block at every point is the shift vector. -/
theorem betaBlock_apply (c : Dev nD) (t : Fin cfg0.N) (j : Fin 4096) :
    iblk m c 7 t (ix2 (0 : Fin 1) j) = (m ((c : Thread nD τ).loc main_arg8)) (ix1 j) := by
  obtain ⟨-, -, -, -, -, -, -, -, -, -, -, -, -, -, e0, e1, -⟩ := idx_facts t
  show V m c main_v5 (((cfg0.win 7).blk t).view.emb (ix2 (0 : Fin 1) j)) = _
  have ee : ((cfg0.win 7).blk t).view.emb (ix2 (0 : Fin 1) j) = ix2 (0 : Fin 1) j := funext fun a => Fin.ext (by
    match a with
    | ⟨0, _⟩ => show win0_7.index t (0 : Fin 2) * 1 + 1 * 0 = 0; omega
    | ⟨1, _⟩ => show win0_7.index t (1 : Fin 2) * 4096 + 1 * j.val = j.val; omega)
  rw [ee]
  exact V_beta m c 0 j

/-- The gates of block row `p` at point `t` are the gates of batch row `R`. -/
theorem blockGates_eq (c : Dev nD) (t : Fin cfg0.N) (p : Fin 256) (R : Fin 4096)
    (hR : R.val = win0_8.index t (0 : Fin 2) * 256 + p.val) :
    rowGates (iblk m c 0 t) (iblk m c 1 t) (iblk m c 3 t) (iblk m c 4 t) (iblk m c 5 t) (iblk m c 6 t) (iblk m c 7 t) p
      = batchGates (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R :=
  gates_of_reads (iblk m c 0 t) (iblk m c 1 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p R
    (fun k => xBlock_apply m c t p k R hR) (fun k => hBlock_apply m c t p k R hR)
    (fun j k => wiBlock_apply m c t j k) (fun j k => whBlock_apply m c t j k)
    (fun j => biasBlock_apply m c t j) (fun j => gammaBlock_apply m c t j) (fun j => betaBlock_apply m c t j)

/-! ## What each point writes back -/

/-- Point `t` writes back block `t` of the new hidden state of the arguments. -/
theorem flushed8_eq (c : Dev nD) (t : Fin cfg0.N) :
    (dats m 0 c).flushed 8 t = ((cfg0.win 8).blk t).view.read (Elt Ideal) (newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [flushed8]
  obtain ⟨-, -, -, -, -, -, -, -, -, -, -, -, -, -, -, -, -, -, e81, e8b⟩ := idx_facts t
  funext y
  obtain ⟨p, q, rfl⟩ : ∃ (p : Fin 256) (q : Fin 1024), y = ix2 p q := ⟨y 0, y 1, eq_ix2 y⟩
  have hlt : win0_8.index t (0 : Fin 2) * 256 + p.val < 4096 := by have := p.isLt; omega
  show out0_8 (F := Ideal) (iblk m c 0 t) (iblk m c 1 t) (iblk m c 2 t) (iblk m c 3 t) (iblk m c 4 t) (iblk m c 5 t) (iblk m c 6 t) (iblk m c 7 t) (ix2 p q)
      = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 8).blk t).view.emb (ix2 p q))
  rw [out8_apply, blockGates_eq m c t p ⟨win0_8.index t (0 : Fin 2) * 256 + p.val, hlt⟩ rfl,
    show blockRow (iblk m c 2 t) p = matRow (m ((c : Thread nD τ).loc main_arg2)) ⟨win0_8.index t (0 : Fin 2) * 256 + p.val, hlt⟩ from
      funext fun k => cBlock_apply m c t p k _ rfl]
  refine (newHidden_apply _ _ _ _ _ _ _ _ _ _ ⟨win0_8.index t (0 : Fin 2) * 256 + p.val, hlt⟩ q ?_ ?_).symm
  · show win0_8.index t (0 : Fin 2) * 256 + 1 * p.val = win0_8.index t (0 : Fin 2) * 256 + p.val; omega
  · show win0_8.index t (1 : Fin 2) * 1024 + 1 * q.val = q.val; omega

/-- Point `t` writes back block `t` of the new cell state of the arguments. -/
theorem flushed9_eq (c : Dev nD) (t : Fin cfg0.N) :
    (dats m 0 c).flushed 9 t = ((cfg0.win 9).blk t).view.read (Elt Ideal) (newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [flushed9]
  obtain ⟨-, -, -, -, -, -, -, -, -, -, -, -, -, -, -, -, e90, e91, e81, e8b⟩ := idx_facts t
  funext y
  obtain ⟨p, q, rfl⟩ : ∃ (p : Fin 256) (q : Fin 1024), y = ix2 p q := ⟨y 0, y 1, eq_ix2 y⟩
  have hlt : win0_8.index t (0 : Fin 2) * 256 + p.val < 4096 := by have := p.isLt; omega
  show out0_9 (F := Ideal) (iblk m c 0 t) (iblk m c 1 t) (iblk m c 2 t) (iblk m c 3 t) (iblk m c 4 t) (iblk m c 5 t) (iblk m c 6 t) (iblk m c 7 t) (ix2 p q)
      = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 p q))
  rw [out9_apply, blockGates_eq m c t p ⟨win0_8.index t (0 : Fin 2) * 256 + p.val, hlt⟩ rfl,
    show blockRow (iblk m c 2 t) p = matRow (m ((c : Thread nD τ).loc main_arg2)) ⟨win0_8.index t (0 : Fin 2) * 256 + p.val, hlt⟩ from
      funext fun k => cBlock_apply m c t p k _ rfl]
  refine (newCell_apply _ _ _ _ _ _ _ _ _ _ ⟨win0_8.index t (0 : Fin 2) * 256 + p.val, hlt⟩ q ?_ ?_).symm
  · show win0_9.index t (0 : Fin 2) * 256 + 1 * p.val = win0_8.index t (0 : Fin 2) * 256 + p.val; omega
  · show win0_9.index t (1 : Fin 2) * 1024 + 1 * q.val = q.val; omega

/-! ## The blocks cover the arrays -/

/-- An index of the first result's array is in point `t`'s block iff each coordinate is in the block's range on its axis. -/
theorem mem_blk8 (t : Fin cfg0.N) (i : S4096x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v6_0).slice (win0_8.rect t)).set ↔ _
  rw [View.set_slice_whole, Rect.mem_set_unit]
  exact Iff.rfl

/-- The same for the second result's array. -/
theorem mem_blk9 (t : Fin cfg0.N) (i : S4096x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v6_1).slice (win0_9.rect t)).set ↔ _
  rw [View.set_slice_whole, Rect.mem_set_unit]
  exact Iff.rfl

/-- Row `r` is covered by the point whose row block is `r / 256`. -/
theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  obtain ⟨t, ht, -⟩ := idx_onto ⟨(i 0).val / 256, by omega⟩
  have q0 : win0_8.index t (0 : Fin 2) = (i 0).val / 256 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

theorem cover9 (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  obtain ⟨t, -, ht⟩ := idx_onto ⟨(i 0).val / 256, by omega⟩
  have q0 : win0_9.index t (0 : Fin 2) = (i 0).val / 256 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

/-! ## The arrays after the run, and the run -/

/-- The first result array ends as the new hidden state of the arguments. -/
theorem final8 (c : Dev nD) : (dats m 0 c).arrAt 8 cfg0.N = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 8 _ (fun t _ => flushed8_eq m c t) cover8

/-- The second result array ends as the new cell state of the arguments. -/
theorem final9 (c : Dev nD) : (dats m 0 c).arrAt 9 cfg0.N = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed9_eq m c t) cover9

/-- THE KERNEL'S RUN: every weakly fair execution terminates with the two results at the specification's functions of the
    arguments, and the arguments unchanged. -/
theorem run : θ_run defs (onTc (τ := τ) (main (F := Ideal))) ⟨m, fun _ => 0, ρ⟩ fun r => ∀ c : Dev nD,
      r.2.mem ((c : Thread nD τ).loc main_v6_0) = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v6_1) = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2.1.trans (final9 m c), (h c).2.2⟩)
    (run_blocks m ρ)

end Cert.KernelIdeal.ArrayValue

end
-- ==== Proof.RefRow.lean ====
/-
  The reference program, one entry of its two results at a time.

  The reference works on the whole batch at once: two 4096 × 4096 products (each input row against each weight ROW), the
  two bias vectors added one after the other, the normalisation along the gate axis with its statistics kept as 4096 × 1
  columns, four slices of 1024 lanes, and the logistic function spelt out as 1 / (1 + exp (−x)). Read at entry `(r, q)`,
  every stage depends on batch row `r` alone, so the two results at `(r, q)` are the specification's `hiddenState` and
  `cellState` of row `r`'s normalised gates.

  Two small laws join the reference's spelling to the specification's: adding the two biases one after the other is adding
  their sum (associativity of + on the extended reals, which holds with no finiteness assumption), and 1 / (1 + exp (−x))
  IS the logistic function there, infinities included, by its definition. The sums start from the zero word, which is 0.
-/
import proofs.«162058_j55903294325169_2_alg».proof.Proof.Gen.ReferenceIdeal.Read
import proofs.«162058_j55903294325169_2_alg».proof.Proof.LstmSpec
import Idealize.ShloMosaic.Lib.ValueIdx
import Idealize.ShloMosaic.PureOps.Ideal.Laws

noncomputable section

namespace Cert.ReferenceIdeal.RowValue

open Cert.ReferenceIdeal Cert.ReferenceIdeal.Read Idealize.ShloMosaic Idealize.ShloMosaic.ValueIdx Cert.LstmSpec

/-- A 4096 × 1024 argument array at the ideal values. -/
abbrev Mat : Type := (⟨S4096x1024, .f32⟩ : BufTy).Contents (Elt Ideal)
/-- A length-4096 argument array at the ideal values. -/
abbrev Vec1 : Type := (⟨S4096, .f32⟩ : BufTy).Contents (Elt Ideal)

/-! ## Where each stage reads its operand, at the indices met below -/

section Indices
variable (r j : Fin 4096) (k : Fin 1024) (q : Fin 1024) (u : Fin 1)

theorem lidx0 : lidx_main_v0 (ix2 r j) k = ix2 r k := funext fun a => by match a with | ⟨0, _⟩ => rfl | ⟨1, _⟩ => rfl
theorem ridx0 : ridx_main_v0 (ix2 r j) k = ix2 j k := funext fun a => by match a with | ⟨0, _⟩ => rfl | ⟨1, _⟩ => rfl
theorem lidx1 : lidx_main_v1 (ix2 r j) k = ix2 r k := funext fun a => by match a with | ⟨0, _⟩ => rfl | ⟨1, _⟩ => rfl
theorem ridx1 : ridx_main_v1 (ix2 r j) k = ix2 j k := funext fun a => by match a with | ⟨0, _⟩ => rfl | ⟨1, _⟩ => rfl
theorem lane3 : idx_main_v3 (idx_main_v4 (ix2 r j)) = ix1 j := funext fun a => by match a with | ⟨0, _⟩ => rfl
theorem lane6 : idx_main_v6 (idx_main_v7 (ix2 r j)) = ix1 j := funext fun a => by match a with | ⟨0, _⟩ => rfl
theorem lane27 : idx_main_v27 (idx_main_v28 (ix2 r j)) = ix1 j := funext fun a => by match a with | ⟨0, _⟩ => rfl
theorem lane30 : idx_main_v30 (idx_main_v31 (ix2 r j)) = ix1 j := funext fun a => by match a with | ⟨0, _⟩ => rfl
theorem col10 : idx_main_v10 (ix2 r u) = ix1 r := funext fun a => by match a with | ⟨0, _⟩ => rfl
theorem col17 : idx_main_v17 (ix2 r u) = ix1 r := funext fun a => by match a with | ⟨0, _⟩ => rfl
theorem sum9 : idx_main_v9 (ix1 r) j = ix2 r j := funext fun a => by match a with | ⟨0, _⟩ => rfl | ⟨1, _⟩ => rfl
theorem sum16 : idx_main_v16 (ix1 r) j = ix2 r j := funext fun a => by match a with | ⟨0, _⟩ => rfl | ⟨1, _⟩ => rfl
theorem col13 : idx_main_v13 (ix2 r j) = ix2 r (0 : Fin 1) := funext fun a => by match a with | ⟨0, _⟩ => rfl | ⟨1, _⟩ => rfl
theorem col20 : idx_main_v20 (ix2 r j) = ix2 r (0 : Fin 1) := funext fun a => by match a with | ⟨0, _⟩ => rfl | ⟨1, _⟩ => rfl
theorem col25 : idx_main_v25 (ix2 r j) = ix2 r (0 : Fin 1) := funext fun a => by match a with | ⟨0, _⟩ => rfl | ⟨1, _⟩ => rfl
theorem quarter33 : idx_main_v33 (ix2 r q) = ix2 r (quarter 0 (by decide) q) :=
  funext fun a => Fin.ext (by match a with | ⟨0, _⟩ => rfl | ⟨1, _⟩ => exact (Nat.zero_add _).symm)
theorem quarter34 : idx_main_v34 (ix2 r q) = ix2 r (quarter 1024 (by decide) q) :=
  funext fun a => by match a with | ⟨0, _⟩ => rfl | ⟨1, _⟩ => rfl
theorem quarter35 : idx_main_v35 (ix2 r q) = ix2 r (quarter 2048 (by decide) q) :=
  funext fun a => by match a with | ⟨0, _⟩ => rfl | ⟨1, _⟩ => rfl
theorem quarter36 : idx_main_v36 (ix2 r q) = ix2 r (quarter 3072 (by decide) q) :=
  funext fun a => by match a with | ⟨0, _⟩ => rfl | ⟨1, _⟩ => rfl

end Indices

/-- The word of 1.0 denotes 1. -/
theorem one_word : Ideal.ofBits .f32 0x3F800000#32 = 1 := by
  simp [Ideal.ofBits, Ideal.ieee, -EReal.coe_mul]; norm_num

/-- The reference's spelling of the logistic function, on the words it prints. -/
theorem logistic_spelt (x : EReal) :
    FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.hostNegf (F := Ideal) (φ := .f32) x)))
      = Ideal.logistic x := by
  show Ideal.div (Ideal.ofBits .f32 0x3F800000#32) (Ideal.ofBits .f32 0x3F800000#32 + Ideal.exp (-x)) = Ideal.div 1 (1 + Ideal.exp (-x))
  rw [one_word]

section Stages
variable (x0 x1 x2 x3 x4 : Mat) (x5 x6 x7 x8 : Vec1)

/-- The gates of batch row `r` before normalisation, with the two biases summed. -/
def refPre (r : Fin 4096) : Fin 4096 → EReal :=
  gate (matRow x0 r) (matRow x1 r) (matRows x3) (matRows x4) (fun j => vecFam x5 j + vecFam x6 j)

/-- The normalised gates of batch row `r`. -/
def refGates (r : Fin 4096) : Fin 4096 → EReal := normed (refPre x0 x1 x3 x4 x5 x6 r) (vecFam x7) (vecFam x8)

/-- The pre-activations: the two products, then one bias after the other. -/
theorem pre_apply (r j : Fin 4096) :
    val_main_v8 (F := Ideal) x0 x1 x3 x4 x5 x6 (ix2 r j) = refPre x0 x1 x3 x4 x5 x6 r j := by
  rw [val_main_v8_apply, val_main_v5_apply, val_main_v2_apply, val_main_v0_apply, val_main_v1_apply, val_main_v4_apply,
    val_main_v3_apply, val_main_v7_apply, val_main_v6_apply]
  simp only [lidx0, ridx0, lidx1, ridx1, lane3, lane6]
  exact add_assoc _ _ _

/-- The column of means. -/
theorem mean_apply (r : Fin 4096) (u : Fin 1) :
    val_main_v12 (F := Ideal) x0 x1 x3 x4 x5 x6 (ix2 r u) = mean (refPre x0 x1 x3 x4 x5 x6 r) := by
  rw [val_main_v12_apply, val_main_v10_apply, col10, val_main_v9_apply, val_main_v11_apply, val_main_cst_0_apply,
    val_main_cst_apply]
  simp only [sum9, pre_apply]
  show Ideal.div (Ideal.ofBits .f32 0x00000000#32 + _) _ = _
  rw [Ideal.ofBits_zero_f32, zero_add]
  rfl

/-- Every entry minus its row's mean. -/
theorem centred_apply (r j : Fin 4096) :
    val_main_v14 (F := Ideal) x0 x1 x3 x4 x5 x6 (ix2 r j)
      = refPre x0 x1 x3 x4 x5 x6 r j - mean (refPre x0 x1 x3 x4 x5 x6 r) := by
  rw [val_main_v14_apply, val_main_v13_apply, col13, mean_apply, pre_apply]
  rfl

/-- The column of variances. -/
theorem variance_apply (r : Fin 4096) (u : Fin 1) :
    val_main_v19 (F := Ideal) x0 x1 x3 x4 x5 x6 (ix2 r u) = variance (refPre x0 x1 x3 x4 x5 x6 r) := by
  rw [val_main_v19_apply, val_main_v17_apply, col17, val_main_v16_apply, val_main_v18_apply, val_main_cst_2_apply,
    val_main_cst_1_apply]
  simp only [sum16, val_main_v15_apply, centred_apply]
  show Ideal.div (Ideal.ofBits .f32 0x00000000#32 + _) _ = _
  rw [Ideal.ofBits_zero_f32, zero_add]
  rfl

/-- Centred times the reciprocal deviation of the row. -/
theorem unit_apply (r j : Fin 4096) :
    val_main_v26 (F := Ideal) x0 x1 x3 x4 x5 x6 (ix2 r j)
      = (refPre x0 x1 x3 x4 x5 x6 r j - mean (refPre x0 x1 x3 x4 x5 x6 r))
          * Ideal.rsqrt (variance (refPre x0 x1 x3 x4 x5 x6 r) + epsWord) := by
  rw [val_main_v26_apply, val_main_v21_apply, val_main_v20_apply, col20, mean_apply, pre_apply, val_main_v25_apply, col25,
    val_main_v24_apply, val_main_v23_apply, variance_apply, val_main_v22_apply, val_main_cst_3_apply]
  rfl

/-- The normalised gates: scaled by γ, shifted by β. -/
theorem gates_apply (r j : Fin 4096) :
    val_main_v32 (F := Ideal) x0 x1 x3 x4 x5 x6 x7 x8 (ix2 r j) = refGates x0 x1 x3 x4 x5 x6 x7 x8 r j := by
  rw [val_main_v32_apply, val_main_v29_apply, unit_apply, val_main_v28_apply, val_main_v27_apply, lane27,
    val_main_v31_apply, val_main_v30_apply, lane30]
  rfl

/-- σ of the forget quarter. -/
theorem forget_apply (r : Fin 4096) (q : Fin 1024) :
    val_main_v42 (F := Ideal) x0 x1 x3 x4 x5 x6 x7 x8 (ix2 r q)
      = Ideal.logistic (refGates x0 x1 x3 x4 x5 x6 x7 x8 r (quarter 1024 (by decide) q)) := by
  rw [val_main_v42_apply, val_main_v41_apply, val_main_cst_5_apply, val_main_v40_apply, val_main_v39_apply,
    val_main_cst_4_apply, val_main_v38_apply, val_main_v37_apply, val_main_v34_apply, quarter34, gates_apply]
  exact logistic_spelt _

/-- σ of the input quarter. -/
theorem input_apply (r : Fin 4096) (q : Fin 1024) :
    val_main_v49 (F := Ideal) x0 x1 x3 x4 x5 x6 x7 x8 (ix2 r q)
      = Ideal.logistic (refGates x0 x1 x3 x4 x5 x6 x7 x8 r (quarter 0 (by decide) q)) := by
  rw [val_main_v49_apply, val_main_v48_apply, val_main_cst_7_apply, val_main_v47_apply, val_main_v46_apply,
    val_main_cst_6_apply, val_main_v45_apply, val_main_v44_apply, val_main_v33_apply, quarter33, gates_apply]
  exact logistic_spelt _

/-- σ of the output quarter. -/
theorem output_apply (r : Fin 4096) (q : Fin 1024) :
    val_main_v58 (F := Ideal) x0 x1 x3 x4 x5 x6 x7 x8 (ix2 r q)
      = Ideal.logistic (refGates x0 x1 x3 x4 x5 x6 x7 x8 r (quarter 3072 (by decide) q)) := by
  rw [val_main_v58_apply, val_main_v57_apply, val_main_cst_9_apply, val_main_v56_apply, val_main_v55_apply,
    val_main_cst_8_apply, val_main_v54_apply, val_main_v53_apply, val_main_v36_apply, quarter36, gates_apply]
  exact logistic_spelt _

/-- THE SECOND RESULT (the new cell state) at `(r, q)`. -/
theorem cell_apply (r : Fin 4096) (q : Fin 1024) :
    val_main_v52 (F := Ideal) x0 x1 x2 x3 x4 x5 x6 x7 x8 (ix2 r q)
      = cellState (refGates x0 x1 x3 x4 x5 x6 x7 x8 r) (matRow x2 r) q := by
  rw [val_main_v52_apply, val_main_v43_apply, forget_apply, val_main_v51_apply, input_apply, val_main_v50_apply,
    val_main_v35_apply, quarter35, gates_apply]
  rfl

/-- THE FIRST RESULT (the new hidden state) at `(r, q)`. -/
theorem hidden_apply (r : Fin 4096) (q : Fin 1024) :
    val_main_v60 (F := Ideal) x0 x1 x2 x3 x4 x5 x6 x7 x8 (ix2 r q)
      = hiddenState (refGates x0 x1 x3 x4 x5 x6 x7 x8 r) (matRow x2 r) q := by
  rw [val_main_v60_apply, output_apply, val_main_v59_apply, cell_apply]
  rfl

/-- The reference's first result IS the specification's new hidden state of its arguments. -/
theorem hidden_eq : val_main_v60 (F := Ideal) x0 x1 x2 x3 x4 x5 x6 x7 x8 = newHidden x0 x1 x2 x3 x4 x5 x6 x7 x8 := by
  funext i
  obtain ⟨r, q, rfl⟩ : ∃ (r : Fin 4096) (q : Fin 1024), i = ix2 r q := ⟨i 0, i 1, eq_ix2 i⟩
  exact hidden_apply x0 x1 x2 x3 x4 x5 x6 x7 x8 r q

/-- The reference's second result IS the specification's new cell state of its arguments. -/
theorem cell_eq : val_main_v52 (F := Ideal) x0 x1 x2 x3 x4 x5 x6 x7 x8 = newCell x0 x1 x2 x3 x4 x5 x6 x7 x8 := by
  funext i
  obtain ⟨r, q, rfl⟩ : ∃ (r : Fin 4096) (q : Fin 1024), i = ix2 r q := ⟨i 0, i 1, eq_ix2 i⟩
  exact cell_apply x0 x1 x2 x3 x4 x5 x6 x7 x8 r q

end Stages

end Cert.ReferenceIdeal.RowValue

end
-- ==== Proof.lean ====
/-
  The certificate: a LayerNorm LSTM cell computed by a batch-tiled kernel is, on the extended reals, the function its
  plain reference computes.

  Both programs form, for every batch row, 4096 gate pre-activations (the row of `x` against the rows of one weight matrix,
  the row of `h` against the rows of the other, plus bias), normalise them along the gate axis (mean, variance over the same
  4096, reciprocal square root of variance plus ε, scale γ, shift β), cut them into input / forget / cell / output quarters,
  and return σ(output)·tanh(c') and c' = σ(forget)·c + σ(input)·tanh(cell).

  The kernel does this 256 rows at a time at 16 grid points, with the weights rounded to bf16 on the way in (the identity
  on the extended reals), the two biases added beforehand, and the logistic function as one operation. The reference does
  it on all 4096 rows at once, adds the two biases one after the other, and spells the logistic function as
  1 / (1 + exp (−x)). Entry `(r, q)` of either result depends on batch row `r` alone, and the two readings of that row
  differ only by the grouping of the two bias additions — associativity of +, which needs no finiteness — and by the
  spelling of the logistic function, which is its definition. No rearrangement of a sum and no cancellation is needed, so
  the precondition (finite inputs) is never opened.

  The three frames are the generated frame runs (the reference's is its generated run with the results dropped); the
  idealization rewrote nothing, so `preserves` is trivial; `algebraic` sets the kernel's run (its two result arrays as
  `newHidden` / `newCell` of the arguments: KernelRow, KernelBlock, KernelArray) beside the reference's run read into the
  same two functions (RefRow).
-/
import proofs.«162058_j55903294325169_2_alg».proof.Defs
import proofs.«162058_j55903294325169_2_alg».proof.Proof.Gen.Kernel
import proofs.«162058_j55903294325169_2_alg».proof.Proof.Gen.Kernel.Skeleton
import proofs.«162058_j55903294325169_2_alg».proof.Proof.Gen.Kernel.Launch
import proofs.«162058_j55903294325169_2_alg».proof.Proof.Gen.Kernel.Points
import proofs.«162058_j55903294325169_2_alg».proof.Proof.Gen.Kernel.Frame
import proofs.«162058_j55903294325169_2_alg».proof.Proof.Gen.KernelIdeal
import proofs.«162058_j55903294325169_2_alg».proof.Proof.Gen.KernelIdeal.Skeleton
import proofs.«162058_j55903294325169_2_alg».proof.Proof.Gen.KernelIdeal.Launch
import proofs.«162058_j55903294325169_2_alg».proof.Proof.Gen.KernelIdeal.Points
import proofs.«162058_j55903294325169_2_alg».proof.Proof.Gen.KernelIdeal.Frame
import proofs.«162058_j55903294325169_2_alg».proof.Proof.Gen.ReferenceIdeal
import proofs.«162058_j55903294325169_2_alg».proof.Proof.ValueBlockwise
import proofs.«162058_j55903294325169_2_alg».proof.Proof.Gen.ReferenceIdeal.Run
import proofs.«162058_j55903294325169_2_alg».proof.Proof.Gen.ReferenceIdeal.Read
import proofs.«162058_j55903294325169_2_alg».proof.Proof.Gen.Pre_finite_inputs
import proofs.«162058_j55903294325169_2_alg».proof.Proof.KernelArray
import proofs.«162058_j55903294325169_2_alg».proof.Proof.RefRow
import Idealize.ShloMosaic.Adequacy
import Idealize.ShloMosaic.Init

noncomputable section

namespace Cert.Proof

open Idealize.ShloMosaic Idealize.ShloMosaic.TcCoe Idealize.SL.Sem Cert.LstmSpec

/-- The kernel as printed runs, faults nowhere, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On the extended reals both programs end with the new hidden state and the new cell state of the (agreeing)
    arguments: the kernel's run read block by block, the reference's stage by stage, into one pair of functions. -/
theorem algebraic : Cert.algebraic_KernelIdeal_ReferenceIdeal := by
  intro m ρ m' ρ' _ hagree
  refine ⟨fun c => newHidden
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)),
      fun c => newCell
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)),
      Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v60_eq, Cert.ReferenceIdeal.RowValue.hidden_eq, a0, a1, a2, a3, a4, a5, a6, a7, a8]
  · obtain ⟨a0, a1, a2, a3, a4, a5, a6, a7, a8⟩ := hagree c
    rw [Cert.ReferenceIdeal.Read.val_main_v52_eq, Cert.ReferenceIdeal.RowValue.cell_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
